-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x1 .f32) (main_arg5 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x128 : Shape := ⟨2, ![1, 128]⟩
abbrev S1x1 : Shape := ⟨2, ![1, 1]⟩
abbrev S50000x1 : Shape := ⟨2, ![50000, 1]⟩
abbrev S2000x256 : Shape := ⟨2, ![2000, 256]⟩
abbrev S2000x1 : Shape := ⟨2, ![2000, 1]⟩
abbrev S2000x128 : Shape := ⟨2, ![2000, 128]⟩
abbrev S_ : Shape := ⟨0, ![]⟩
abbrev S800000x1 : Shape := ⟨2, ![800000, 1]⟩
abbrev S800000x256 : Shape := ⟨2, ![800000, 256]⟩

abbrev nBuf : Space → Nat
  | .hbm => 53
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S1x128, .f32⟩
  | .hbm, ⟨11, _⟩ => ⟨S1x1, .f32⟩
  | .hbm, ⟨12, _⟩ => ⟨S50000x256, .bf16⟩
  | .hbm, ⟨13, _⟩ => ⟨S50000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .bf16⟩
  | .hbm, ⟨23, _⟩ => ⟨S800000x256, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x1, .f32⟩
  | .hbm, ⟨33, _⟩ => ⟨S_, .f32⟩
  | .hbm, ⟨34, _⟩ => ⟨S50000x256, .f32⟩
  | .hbm, ⟨35, _⟩ => ⟨S800000x1, .i32⟩
  | .hbm, ⟨36, _⟩ => ⟨S50000x256, .f32⟩
  | .hbm, ⟨37, _⟩ => ⟨S_, .f32⟩
  | .hbm, ⟨38, _⟩ => ⟨S50000x1, .f32⟩
  | .hbm, ⟨39, _⟩ => ⟨S800000x1, .i32⟩
  | .hbm, ⟨40, _⟩ => ⟨S50000x1, .f32⟩
  | .hbm, ⟨41, _⟩ => ⟨S_, .f32⟩
  | .hbm, ⟨42, _⟩ => ⟨S50000x1, .f32⟩
  | .hbm, ⟨43, _⟩ => ⟨S50000x1, .i1⟩
  | .hbm, ⟨44, _⟩ => ⟨S_, .f32⟩
  | .hbm, ⟨45, _⟩ => ⟨S50000x1, .f32⟩
  | .hbm, ⟨46, _⟩ => ⟨S50000x1, .f32⟩
  | .hbm, ⟨47, _⟩ => ⟨S50000x256, .f32⟩
  | .hbm, ⟨48, _⟩ => ⟨S50000x256, .f32⟩
  | .hbm, ⟨49, _⟩ => ⟨S_, .f32⟩
  | .hbm, ⟨50, _⟩ => ⟨S50000x256, .f32⟩
  | .hbm, ⟨51, _⟩ => ⟨S50000x256, .i1⟩
  | .hbm, ⟨52, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S128x1, .f32⟩
  | .local _ .vmem, ⟨5, _⟩ => ⟨S1x1, .f32⟩
  | .local _ .vmem, ⟨6, _⟩ => ⟨S2000x256, .bf16⟩
  | .local _ .vmem, ⟨7, _⟩ => ⟨S2000x256, .bf16⟩
  | .local _ .vmem, ⟨8, _⟩ => ⟨S2000x1, .f32⟩
  | .local _ .vmem, ⟨9, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_call0_v0 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x256 : S2000x1.Broadcasts S2000x256
  packedbf16_S2000x256_S2000x256_0_0 : (Rect.unit (s := S2000x256) ![0, 0] S2000x256.size inb_S2000x256_S2000x256_0_0).PackedRows (EltTy.packing .bf16)
  inb_S2000x1_S2000x1_0_0 : ∀ a, (![0, 0] : Fin 2 → Nat) a + S2000x1.size a ≤ S2000x1.size a
  h_S2000x1 : 0 < S2000x1.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  gather_S50000x256_S800000x1_S800000x256_1_0_n_n_0_1_1256_wf : GatherDims.WF S50000x256 S800000x1 S800000x256 [1] [0] [] [0] [] 1 ![1, 256]
  gather_S50000x1_S800000x1_S800000x1_1_0_n_n_0_1_11_wf : GatherDims.WF S50000x1 S800000x1 S800000x1 [1] [0] [] [0] [] 1 ![1, 1]
  scatter_S50000x256_S800000x1_S800000x256_1_0_0_1_wf : ScatterDims.WF S50000x256 S800000x1 S800000x256 [1] [0] [0] 1
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .bf16 = 32 ∨ (Rect.block (s := S50000x256) S2000x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S50000x1.size a
  hwx0_6 : ∀ i : grid0.Coords, EltTy.bits .f32 = 32 ∨ (Rect.block (s := S50000x1) S2000x1.size (cc0_transform_6 i) (hinb0_6 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S2000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S800000x128 : Shape := ⟨2, ![800000, 128]⟩
abbrev S1x128 : Shape := ⟨2, ![1, 128]⟩
abbrev S1x1 : Shape := ⟨2, ![1, 1]⟩
abbrev S50000x1 : Shape := ⟨2, ![50000, 1]⟩

abbrev nBuf : Space → Nat
  | .hbm => 61
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S800000x128, .f32⟩
  | .hbm, ⟨20, _⟩ => ⟨S1x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S800000x128, .f32⟩
  | .hbm, ⟨25, _⟩ => ⟨S800000x128, .f32⟩
  | .hbm, ⟨26, _⟩ => ⟨S800000x1, .f32⟩
  | .hbm, ⟨27, _⟩ => ⟨S1x1, .f32⟩
  | .hbm, ⟨28, _⟩ => ⟨S800000x1, .f32⟩
  | .hbm, ⟨29, _⟩ => ⟨S800000x1, .f32⟩
  | .hbm, ⟨30, _⟩ => ⟨S800000x1, .f32⟩
  | .hbm, ⟨31, _⟩ => ⟨S800000x1, .f32⟩
  | .hbm, ⟨32, _⟩ => ⟨S_, .f32⟩
  | .hbm, ⟨33, _⟩ => ⟨S800000x1, .f32⟩
  | .hbm, ⟨34, _⟩ => ⟨S800000x1, .f32⟩
  | .hbm, ⟨35, _⟩ => ⟨S_, .f32⟩
  | .hbm, ⟨36, _⟩ => ⟨S800000x1, .f32⟩
  | .hbm, ⟨37, _⟩ => ⟨S800000x1, .f32⟩
  | .hbm, ⟨38, _⟩ => ⟨S800000x256, .f32⟩
  | .hbm, ⟨39, _⟩ => ⟨S800000x256, .f32⟩
  | .hbm, ⟨40, _⟩ => ⟨S_, .f32⟩
  | .hbm, ⟨41, _⟩ => ⟨S50000x256, .f32⟩
  | .hbm, ⟨42, _⟩ => ⟨S800000x1, .i32⟩
  | .hbm, ⟨43, _⟩ => ⟨S50000x256, .f32⟩
  | .hbm, ⟨44, _⟩ => ⟨S_, .f32⟩
  | .hbm, ⟨45, _⟩ => ⟨S50000x1, .f32⟩
  | .hbm, ⟨46, _⟩ => ⟨S800000x1, .i32⟩
  | .hbm, ⟨47, _⟩ => ⟨S50000x1, .f32⟩
  | .hbm, ⟨48, _⟩ => ⟨S_, .f32⟩
  | .hbm, ⟨49, _⟩ => ⟨S50000x1, .f32⟩
  | .hbm, ⟨50, _⟩ => ⟨S50000x1, .i1⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S_, .f32⟩
  | .hbm, ⟨58, _⟩ => ⟨S50000x256, .i1⟩
  | .hbm, ⟨59, _⟩ => ⟨S50000x256, .f32⟩
  | .hbm, ⟨60, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []
  scatter_S50000x256_S800000x1_S800000x256_1_0_0_1_wf : ScatterDims.WF S50000x256 S800000x1 S800000x256 [1] [0] [0] 1
  scatter_S50000x1_S800000x1_S800000x1_1_0_0_1_wf : ScatterDims.WF S50000x1 S800000x1 S800000x1 [1] [0] [0] 1

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«125902_j29317446762861_2_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LibColumnSpread.lean ====
/-
  One column spread over many.

  A kernel that keeps a per-row scalar as a column `[a, 1]` and multiplies a whole `[a, b]` block by it
  broadcasts the column along the second axis. Read at `(p, c)` the broadcast is the column's entry of row `p`,
  whatever the column `c`. (The library has the row form `[1, b] → [a, b]`; this is the column form.)
  Imports only the Idealize library.
-/
import Idealize.ShloMosaic.Lib.Pipeline.Value
import Idealize.ShloMosaic.Lib.ValueIdx

noncomputable section

namespace Cert.Lib.ColumnSpread

open Idealize.ShloMosaic Idealize.ShloMosaic.ValueIdx

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnSpread

end
-- ==== Proof.Gate.lean ====
/-
  The attention weight of one node.

  A node's weight is a two-layer perceptron of its own feature row and of nothing else: the row times the
  first weight matrix plus the first bias, rectified, times the second weight column plus the second bias, through
  the logistic function. Because only ONE row enters, computing the weight per node and then fetching it along an
  edge, or fetching the row along the edge and then computing the weight, give the same number: that is the whole
  content of this certificate. Everything is on the extended reals; no finiteness is used anywhere.
-/
import Idealize.ShloMosaic.PureOps.Ideal
import Idealize.ShloMosaic.Lib.ValueIdx

noncomputable section

namespace Cert.NodeGate

open Idealize.ShloMosaic Idealize.ShloMosaic.ValueIdx

/-- Hidden unit `j` of a feature row: `max (Σ_i row i · W1 (i, j) + b1 j) 0`, the zero spelt as both programs spell it. -/
def hiddenUnit (row : Fin 256 → EReal) (W1 : (⟨2, ![256, 128]⟩ : Shape).Idx → EReal) (b1 : Fin 128 → EReal) (j : Fin 128) : EReal :=
  max ((∑ i : Fin 256, row i * W1 (ix2 i j)) + b1 j) (Ideal.ofBits .f32 0x00000000#32)

/-- The weight of a feature row: the logistic function of `Σ_j hiddenUnit j · W2 (j, 0) + b2`. -/
def gate (row : Fin 256 → EReal) (W1 : (⟨2, ![256, 128]⟩ : Shape).Idx → EReal) (b1 : Fin 128 → EReal)
    (W2 : (⟨2, ![128, 1]⟩ : Shape).Idx → EReal) (b2 : EReal) : EReal :=
  Ideal.logistic ((∑ j : Fin 128, hiddenUnit row W1 b1 j * W2 (ix2 j (0 : Fin 1))) + b2)

/-- The weight depends on its five arguments only. -/
theorem gate_congr {row row' : Fin 256 → EReal} {W1 W1' : (⟨2, ![256, 128]⟩ : Shape).Idx → EReal} {b1 b1' : Fin 128 → EReal}
    {W2 W2' : (⟨2, ![128, 1]⟩ : Shape).Idx → EReal} {b2 b2' : EReal}
    (h0 : row = row') (h1 : W1 = W1') (h2 : b1 = b1') (h3 : W2 = W2') (h4 : b2 = b2') :
    gate row W1 b1 W2 b2 = gate row' W1' b1' W2' b2' := by
  subst h0 h1 h2 h3 h4; rfl

end Cert.NodeGate

end
-- ==== Proof.KernelBody.lean ====
/-
  What the kernel body computes for one block of 2000 nodes, entry by entry.

  The body multiplies the block of feature rows by the first weight matrix, adds the bias row, rectifies, multiplies
  by the second weight column, adds the second bias and applies the logistic function: entry `(p, 0)` of the column
  it stores is the weight `Cert.NodeGate.gate` of row `p` of the block. The second store is the block itself with
  each row scaled by its weight. The changes of float format in between are the identity on the extended reals.
-/
import proofs.«125902_j29317446762861_2_alg».proof.Proof.Gen.KernelIdeal.Skeleton
import proofs.«125902_j29317446762861_2_alg».proof.Proof.LibDenseLayer
import proofs.«125902_j29317446762861_2_alg».proof.Proof.LibColumnSpread
import proofs.«125902_j29317446762861_2_alg».proof.Proof.Gate
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen Cert.NodeGate

/-- The first product's contraction record: [2000, 256] by [256, 128]. -/
abbrev D1 : DotDims S2000x256 S256x128 S2000x128 := dot_S2000x256_S256x128_S2000x128_1_0_0_1_n_n
/-- The second product's: [2000, 128] by [128, 1]. -/
abbrev D2 : DotDims S2000x128 S128x1 S2000x1 := dot_S2000x128_S128x1_S2000x1_1_0_0_1_n_n

/-! ## The operand coordinates of the two products -/

theorem D1_l0 (j : S2000x128.Idx) (q : D1.contr.Idx) : (D1.lhsIdx j q 0).val = (j 0).val := by
  unfold DotDims.lhsIdx
  rw [dif_neg (show ¬(0 : Fin S2000x256.rank) ∈ D1.lhsBatch by decide), dif_pos (show (0 : Fin S2000x256.rank) ∈ D1.lhsNonContracting by decide)]
  rfl
theorem D1_l1 (j : S2000x128.Idx) (q : D1.contr.Idx) : (D1.lhsIdx j q 1).val = (q ⟨0, by decide⟩).val :=
  D1.lhsIdx_val_of_single rfl j q
theorem D1_r0 (j : S2000x128.Idx) (q : D1.contr.Idx) : (D1.rhsIdx j q 0).val = (q ⟨0, by decide⟩).val :=
  D1.rhsIdx_val_of_single rfl j q
theorem D1_r1 (j : S2000x128.Idx) (q : D1.contr.Idx) : (D1.rhsIdx j q 1).val = (j 1).val := by
  unfold DotDims.rhsIdx
  rw [dif_neg (show ¬(1 : Fin S256x128.rank) ∈ D1.rhsBatch by decide), dif_pos (show (1 : Fin S256x128.rank) ∈ D1.rhsNonContracting by decide)]
  rfl

theorem D2_l0 (j : S2000x1.Idx) (q : D2.contr.Idx) : (D2.lhsIdx j q 0).val = (j 0).val := by
  unfold DotDims.lhsIdx
  rw [dif_neg (show ¬(0 : Fin S2000x128.rank) ∈ D2.lhsBatch by decide), dif_pos (show (0 : Fin S2000x128.rank) ∈ D2.lhsNonContracting by decide)]
  rfl
theorem D2_l1 (j : S2000x1.Idx) (q : D2.contr.Idx) : (D2.lhsIdx j q 1).val = (q ⟨0, by decide⟩).val :=
  D2.lhsIdx_val_of_single rfl j q
theorem D2_r0 (j : S2000x1.Idx) (q : D2.contr.Idx) : (D2.rhsIdx j q 0).val = (q ⟨0, by decide⟩).val :=
  D2.rhsIdx_val_of_single rfl j q
theorem D2_r1 (j : S2000x1.Idx) (q : D2.contr.Idx) : (D2.rhsIdx j q 1).val = (j 1).val := by
  unfold DotDims.rhsIdx
  rw [dif_neg (show ¬(1 : Fin S128x1.rank) ∈ D2.rhsBatch by decide), dif_pos (show (1 : Fin S128x1.rank) ∈ D2.rhsNonContracting by decide)]
  rfl

/-! ## The two stored values at an entry -/

/-- The stored column at row `p` is the weight of row `p` of the block of features. -/
theorem weight_apply (x0 : Vec Ideal S2000x256 .f32) (x1 : Vec Ideal S256x128 .f32) (x2 : Vec Ideal S1x128 .f32)
    (x3 : Vec Ideal S128x1 .f32) (x4 : Vec Ideal S1x1 .f32) (p : Fin 2000) :
    k0_pay1 (F := Ideal) x0 x1 x2 x3 x4 (ix2 p (0 : Fin 1))
      = gate (fun i => x0 (ix2 p i)) x1 (fun j => x2 (ix2 (0 : Fin 1) j)) x3 (x4 (ix2 (0 : Fin 1) (0 : Fin 1))) := by
  unfold k0_pay1 gate
  refine congrArg Ideal.logistic ((Cert.Lib.DenseLayer.layer_apply D2 rfl rfl D2_l0 D2_l1 D2_r0 D2_r1 _ _ _ _ p (0 : Fin 1)).trans ?_)
  refine congrArg₂ (· + ·) (Finset.sum_congr rfl fun k _ => congrArg₂ (· * ·) ?_ rfl) (congrFun (shapeCast_self x4 _) _)
  unfold hiddenUnit
  refine congrArg₂ max ((Cert.Lib.DenseLayer.layer_apply D1 rfl rfl D1_l0 D1_l1 D1_r0 D1_r1 _ _ _ _ p k).trans ?_) rfl
  exact congrArg₂ (· + ·) rfl (congrFun (shapeCast_self x2 _) _)

/-- The stored block at `(p, q)` is the feature there times the weight of its row. -/
theorem scaled_apply (x0 : Vec Ideal S2000x256 .f32) (x1 : Vec Ideal S256x128 .f32) (x2 : Vec Ideal S1x128 .f32)
    (x3 : Vec Ideal S128x1 .f32) (x4 : Vec Ideal S1x1 .f32) (p : Fin 2000) (q : Fin 256) :
    k0_pay2 (F := Ideal) x0 x1 x2 x3 x4 (ix2 p q)
      = x0 (ix2 p q) * k0_pay1 (F := Ideal) x0 x1 x2 x3 x4 (ix2 p (0 : Fin 1)) := by
  unfold k0_pay2
  exact congrArg (x0 (ix2 p q) * ·) (Cert.Lib.ColumnSpread.broadcastTo_a1_ab_apply _ _ p q)

end Cert.KernelIdeal.Body

end
-- ==== Proof.KernelArrays.lean ====
/-
  The two arrays the kernel leaves, as whole functions of the arrays it was launched on.

  The grid has 25 points; point `t` works on rows `2000·t … 2000·t + 1999` of the features and writes the same
  rows of both results, with the two weight matrices and the two one-row biases read whole at every point. So the
  weight column ends at `weights`: row `n` holds the weight of feature row `n`; and the scaled features end at
  `scaled`: entry `(n, d)` holds feature `(n, d)` times the weight of row `n`. Every row is in exactly the block of
  point `n / 2000`, so the blocks cover both arrays.
-/
import proofs.«125902_j29317446762861_2_alg».proof.Proof.Gen.KernelIdeal.Frame
import proofs.«125902_j29317446762861_2_alg».proof.Proof.KernelBody
import Idealize.ShloMosaic.Lib.Pipeline.Value
import Idealize.ShloMosaic.Lib.ValueIdx
import Idealize.ShloMosaic.PureOps.Ideal

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body Cert.NodeGate

/-! ## The two results as functions of whole arrays -/

/-- The weight of node `n`: the gate of row `n` of the features, the biases given as the one-row arrays the kernel loads. -/
def weightOf (X : S50000x256.Idx → EReal) (W1 : S256x128.Idx → EReal) (B1 : S1x128.Idx → EReal)
    (W2 : S128x1.Idx → EReal) (B2 : S1x1.Idx → EReal) (n : Fin 50000) : EReal :=
  gate (fun k => X (ix2 n k)) W1 (fun j => B1 (ix2 (0 : Fin 1) j)) W2 (B2 (ix2 (0 : Fin 1) (0 : Fin 1)))

/-- The column of all weights. -/
def weights (X : S50000x256.Idx → EReal) (W1 : S256x128.Idx → EReal) (B1 : S1x128.Idx → EReal)
    (W2 : S128x1.Idx → EReal) (B2 : S1x1.Idx → EReal) : S50000x1.Idx → EReal :=
  fun i => weightOf X W1 B1 W2 B2 (i 0)

/-- The features, each row scaled by its weight. -/
def scaled (X : S50000x256.Idx → EReal) (W1 : S256x128.Idx → EReal) (B1 : S1x128.Idx → EReal)
    (W2 : S128x1.Idx → EReal) (B2 : S1x1.Idx → EReal) : S50000x256.Idx → EReal :=
  fun i => X i * weightOf X W1 B1 W2 B2 (i 0)

variable (m : (ℓ : Loc nD τ sig) → Buf (Elt Ideal) ℓ)

theorem hz : (![0, 0] : Fin 2 → Nat) = fun _ => 0 := funext fun a => by fin_cases a <;> rfl

/-! ## Where each window's block sits at a point -/

/-- The printed index maps over the 25 points: the features' window and both results' windows sit on the same block of
    rows, in column block 0; the weights and biases are always at block (0, 0). -/
theorem idx_facts : ∀ t : Fin cfg0.N,
    win0_0.index t (0 : Fin 2) = win0_6.index t (0 : Fin 2) ∧ win0_0.index t (1 : Fin 2) = 0
    ∧ win0_5.index t (0 : Fin 2) = win0_6.index t (0 : Fin 2) ∧ win0_5.index t (1 : Fin 2) = 0
    ∧ win0_6.index t (1 : Fin 2) = 0 ∧ win0_6.index t (0 : Fin 2) ≤ 24
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block of rows is some point's. -/
theorem idx_onto : ∀ q0 : Fin 25, ∃ t : Fin cfg0.N, win0_6.index t = ![q0.val, 0] ∧ win0_5.index t = ![q0.val, 0] :=
  (by decide +kernel : ∀ q0 : Fin 25, ∃ t : Fin grid0.N, win0_6.index t = ![q0.val, 0] ∧ win0_5.index t = ![q0.val, 0])

/-! ## The input blocks, read where the output's block says -/

/-- The first weight matrix is loaded whole at every point. -/
theorem blk1_eq (c : Dev nD) (t : Fin cfg0.N) : (iblk m c 1 t : S256x128.Idx → EReal) = V m c main_arg2 := by
  obtain ⟨-, -, -, -, -, -, e0, e1, -⟩ := idx_facts t
  funext y
  show V m c main_arg2 (((cfg0.win 1).blk t).view.emb y) = V m c main_arg2 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- The first bias row is loaded whole at every point. -/
theorem blk2_eq (c : Dev nD) (t : Fin cfg0.N) : (iblk m c 2 t : S1x128.Idx → EReal) = V m c main_v4 := by
  obtain ⟨-, -, -, -, -, -, -, -, e0, e1, -⟩ := idx_facts t
  funext y
  show V m c main_v4 (((cfg0.win 2).blk t).view.emb y) = V m c main_v4 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The second weight column is loaded whole at every point. -/
theorem blk3_eq (c : Dev nD) (t : Fin cfg0.N) : (iblk m c 3 t : S128x1.Idx → EReal) = V m c main_arg4 := by
  obtain ⟨-, -, -, -, -, -, -, -, -, -, e0, e1, -⟩ := idx_facts t
  funext y
  show V m c main_arg4 (((cfg0.win 3).blk t).view.emb y) = V m c main_arg4 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 1 + 1 * (y 1).val = (y 1).val; omega

/-- The second bias is loaded whole at every point. -/
theorem blk4_eq (c : Dev nD) (t : Fin cfg0.N) : (iblk m c 4 t : S1x1.Idx → EReal) = V m c main_v5 := by
  obtain ⟨-, -, -, -, -, -, -, -, -, -, -, -, e0, e1⟩ := idx_facts t
  funext y
  show V m c main_v5 (((cfg0.win 4).blk t).view.emb y) = V m c main_v5 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1 + 1 * (y 1).val = (y 1).val; omega

/-- Row `p` of the features' block at point `t` is the row of the array that row `p` of the weight column's block is. -/
theorem blk0_row6 (c : Dev nD) (t : Fin cfg0.N) (p : Fin 2000) (q : Fin 1) :
    (fun k : Fin 256 => (iblk m c 0 t : S2000x256.Idx → EReal) (ix2 p k))
      = fun k : Fin 256 => V m c main_arg0 (ix2 ((((cfg0.win 6).blk t).view.emb (ix2 p q)) 0) k) := by
  obtain ⟨e0, e1, -⟩ := idx_facts t
  funext k
  show V m c main_arg0 (((cfg0.win 0).blk t).view.emb (ix2 p k)) = _
  refine congrArg _ (funext fun a => Fin.ext ?_)
  match a with
  | ⟨0, _⟩ => show win0_0.index t (0 : Fin 2) * 2000 + 1 * p.val = win0_6.index t (0 : Fin 2) * 2000 + 1 * p.val; omega
  | ⟨1, _⟩ => show win0_0.index t (1 : Fin 2) * 256 + 1 * k.val = k.val; omega

/-- The same against the scaled features' block. -/
theorem blk0_row5 (c : Dev nD) (t : Fin cfg0.N) (p : Fin 2000) (q : Fin 256) :
    (fun k : Fin 256 => (iblk m c 0 t : S2000x256.Idx → EReal) (ix2 p k))
      = fun k : Fin 256 => V m c main_arg0 (ix2 ((((cfg0.win 5).blk t).view.emb (ix2 p q)) 0) k) := by
  obtain ⟨e0, e1, e2, e3, -⟩ := idx_facts t
  funext k
  show V m c main_arg0 (((cfg0.win 0).blk t).view.emb (ix2 p k)) = _
  refine congrArg _ (funext fun a => Fin.ext ?_)
  match a with
  | ⟨0, _⟩ => show win0_0.index t (0 : Fin 2) * 2000 + 1 * p.val = win0_5.index t (0 : Fin 2) * 2000 + 1 * p.val; omega
  | ⟨1, _⟩ => show win0_0.index t (1 : Fin 2) * 256 + 1 * k.val = k.val; omega

/-- Entry `(p, q)` of the features' block is the array's entry where the scaled features' block puts `(p, q)`. -/
theorem blk0_at5 (c : Dev nD) (t : Fin cfg0.N) (p : Fin 2000) (q : Fin 256) :
    (iblk m c 0 t : S2000x256.Idx → EReal) (ix2 p q) = V m c main_arg0 (((cfg0.win 5).blk t).view.emb (ix2 p q)) := by
  obtain ⟨e0, e1, e2, e3, -⟩ := idx_facts t
  show V m c main_arg0 (((cfg0.win 0).blk t).view.emb (ix2 p q)) = _
  refine congrArg _ (funext fun a => Fin.ext ?_)
  match a with
  | ⟨0, _⟩ => show win0_0.index t (0 : Fin 2) * 2000 + 1 * p.val = win0_5.index t (0 : Fin 2) * 2000 + 1 * p.val; omega
  | ⟨1, _⟩ => show win0_0.index t (1 : Fin 2) * 256 + 1 * q.val = win0_5.index t (1 : Fin 2) * 256 + 1 * q.val; omega

/-! ## What a point writes back -/

/-- Point `t` writes back block `t` of the weight column. -/
theorem flushed6_eq (c : Dev nD) (t : Fin cfg0.N) :
    (dats m 0 c).flushed 6 t = ((cfg0.win 6).blk t).view.read (Elt Ideal)
      (weights (V m c main_arg0) (V m c main_arg2) (V m c main_v4) (V m c main_arg4) (V m c main_v5)) := by
  show (cfg0.win 6).cut (grid0.coords t) ((dats m 0 c).after 6 t) = _
  rw [after0_6]
  unfold out0_6
  rw [View.canon_unit_zero hz]
  simp only [View.ld_unit_zero (S := S2000x256) hz, View.ld_unit_zero (S := S256x128) hz, View.ld_unit_zero (S := S1x128) hz,
    View.ld_unit_zero (S := S128x1) hz, View.ld_unit_zero (S := S1x1) hz]
  funext j
  obtain ⟨p, q, rfl⟩ : ∃ (p : Fin 2000) (q : Fin 1), j = ix2 p q := ⟨j 0, j 1, eq_ix2 j⟩
  obtain rfl : q = 0 := Subsingleton.elim _ _
  refine (weight_apply _ _ _ _ _ p).trans ?_
  exact gate_congr (blk0_row6 m c t p 0) (blk1_eq m c t) (congrArg (fun B : S1x128.Idx → EReal => fun j : Fin 128 => B (ix2 (0 : Fin 1) j)) (blk2_eq m c t))
    (blk3_eq m c t) (congrFun (blk4_eq m c t) _)

/-- Point `t` writes back block `t` of the scaled features. -/
theorem flushed5_eq (c : Dev nD) (t : Fin cfg0.N) :
    (dats m 0 c).flushed 5 t = ((cfg0.win 5).blk t).view.read (Elt Ideal)
      (scaled (V m c main_arg0) (V m c main_arg2) (V m c main_v4) (V m c main_arg4) (V m c main_v5)) := by
  show (cfg0.win 5).cut (grid0.coords t) ((dats m 0 c).after 5 t) = _
  rw [after0_5]
  unfold out0_5
  rw [View.canon_unit_zero hz]
  simp only [View.ld_unit_zero (S := S2000x256) hz, View.ld_unit_zero (S := S256x128) hz, View.ld_unit_zero (S := S1x128) hz,
    View.ld_unit_zero (S := S128x1) hz, View.ld_unit_zero (S := S1x1) hz]
  funext j
  obtain ⟨p, q, rfl⟩ : ∃ (p : Fin 2000) (q : Fin 256), j = ix2 p q := ⟨j 0, j 1, eq_ix2 j⟩
  refine (scaled_apply _ _ _ _ _ p q).trans ?_
  refine congrArg₂ (· * ·) (blk0_at5 m c t p q) ((weight_apply _ _ _ _ _ p).trans ?_)
  exact gate_congr (blk0_row5 m c t p q) (blk1_eq m c t) (congrArg (fun B : S1x128.Idx → EReal => fun j : Fin 128 => B (ix2 (0 : Fin 1) j)) (blk2_eq m c t))
    (blk3_eq m c t) (congrFun (blk4_eq m c t) _)

/-! ## The blocks cover the arrays -/

theorem mem_blk6 (t : Fin cfg0.N) (i : S50000x1.Idx) :
    i ∈ ((cfg0.win 6).blk t).view.set ↔ ∀ a : Fin 2, win0_6.index t a * S2000x1.size a ≤ (i a).val ∧ (i a).val < win0_6.index t a * S2000x1.size a + S2000x1.size a := by
  show i ∈ ((View.whole main_v6_1).slice (win0_6.rect t)).set ↔ _
  rw [View.set_slice_whole, Rect.mem_set_unit]
  exact Iff.rfl

theorem mem_blk5 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v6_0).slice (win0_5.rect t)).set ↔ _
  rw [View.set_slice_whole, Rect.mem_set_unit]
  exact Iff.rfl

/-- Row `n` of the weight column is in the block of point `n / 2000`. -/
theorem cover6 (i : S50000x1.Idx) : ∃ t : Fin cfg0.N, (cfg0.win 6).flush t = true ∧ i ∈ ((cfg0.win 6).blk t).view.set := by
  have hi0 : (i 0).val < 50000 := (i 0).isLt
  have hi1 : (i 1).val < 1 := (i 1).isLt
  obtain ⟨t, ht, -⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 1 ≤ (i 1).val ∧ (i 1).val < win0_6.index t (1 : Fin 2) * 1 + 1; omega

/-- Entry `(n, d)` of the scaled features is in the block of point `n / 2000`. -/
theorem cover5 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, -, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-! ## The arrays after the run -/

/-- The weight column after the run. -/
theorem final6 (c : Dev nD) : (dats m 0 c).arrAt 6 cfg0.N
    = weights (V m c main_arg0) (V m c main_arg2) (V m c main_v4) (V m c main_arg4) (V m c main_v5) :=
  (dats m 0 c).arrAt_eq_of_cover 6 _ (fun t _ => flushed6_eq m c t) cover6

/-- The scaled features after the run. -/
theorem final5 (c : Dev nD) : (dats m 0 c).arrAt 5 cfg0.N
    = scaled (V m c main_arg0) (V m c main_arg2) (V m c main_v4) (V m c main_arg4) (V m c main_v5) :=
  (dats m 0 c).arrAt_eq_of_cover 5 _ (fun t _ => flushed5_eq m c t) cover5

end Cert.KernelIdeal.Arrays

end
-- ==== Proof.KernelTail.lean ====
/-
  The end both programs share: sum along the edges into the destination nodes and normalise.

  Given, per edge, a contribution row and a weight, and the edges' destination words: `num` adds each contribution
  row into its destination's row of a zero table, `den` adds each weight into its destination's entry of a zero
  column, and the result at `(n, d)` is `num (n, d) / max (den n) ε` where `den n > 0` and zero elsewhere. Both
  programs apply exactly these operations, so the certificate never opens them: it shows that the two programs feed
  them the same contributions, weights and destinations. The kernel's program reaches them from the two arrays its
  region leaves, through a fetch of the source node's row along each edge.
-/
import proofs.«125902_j29317446762861_2_alg».proof.Proof.Gen.KernelIdeal.Frame
import Idealize.ShloMosaic.Lib.StableHlo.Run
import Idealize.ShloMosaic.PureOps.Ideal

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

/-! ## The shared operations -/

/-- A vector of words, one per edge, as the one-column array a gather or a scatter reads its start words from. -/
def asColumn (v : (⟨S800000, .i32⟩ : BufTy).Contents (Elt Ideal)) : (⟨S800000x1, .i32⟩ : BufTy).Contents (Elt Ideal) :=
  broadcastInDim S800000x1 ![0] bcast_S800000_S800000x1_0 v

/-- A negative index counted from the end of the 50000 nodes. -/
def wrapNeg (v : (⟨S800000, .i32⟩ : BufTy).Contents (Elt Ideal)) : (⟨S800000, .i32⟩ : BufTy).Contents (Elt Ideal) :=
  select (cmpi .slt v (broadcastInDim S800000 ![] bcast_S_S800000 (constantI S_ 32 0#32)))
    (addi v (broadcastInDim S800000 ![] bcast_S_S800000 (constantI S_ 32 50000#32))) v

/-- The weights summed into their destination nodes. -/
def den (rows : (⟨S800000, .i32⟩ : BufTy).Contents (Elt Ideal)) (wt : (⟨S800000x1, .f32⟩ : BufTy).Contents (Elt Ideal)) :
    (⟨S50000x1, .f32⟩ : BufTy).Contents (Elt Ideal) :=
  Host.scatterAdd scatter_S50000x1_S800000x1_S800000x1_1_0_0_1
    (broadcastInDim S50000x1 ![] bcast_S_S50000x1 (constant (F := Ideal) S_ .f32 0x00000000#32)) (asColumn rows) wt

/-- The contribution rows summed into their destination nodes. -/
def num (rows : (⟨S800000, .i32⟩ : BufTy).Contents (Elt Ideal)) (upd : (⟨S800000x256, .f32⟩ : BufTy).Contents (Elt Ideal)) :
    (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32)) (asColumn rows) upd

/-- The normalised sums: `num / max den ε` where `den > 0`, zero elsewhere. -/
def tail (rows : (⟨S800000, .i32⟩ : BufTy).Contents (Elt Ideal)) (upd : (⟨S800000x256, .f32⟩ : BufTy).Contents (Elt Ideal))
    (wt : (⟨S800000x1, .f32⟩ : BufTy).Contents (Elt Ideal)) : (⟨S50000x256, .f32⟩ : BufTy).Contents (Elt Ideal) :=
  select
    (broadcastInDim S50000x256 ![0, 1] bcast_S50000x1_S50000x256_0_1
      (cmpf .ogt (den rows wt) (broadcastInDim S50000x1 ![] bcast_S_S50000x1 (constant (F := Ideal) S_ .f32 0x00000000#32))))
    (Host.divf (num rows upd)
      (broadcastInDim S50000x256 ![0, 1] bcast_S50000x1_S50000x256_0_1
        (maximumf (den rows wt) (broadcastInDim S50000x1 ![] bcast_S_S50000x1 (constant (F := Ideal) S_ .f32 0x2B8CBCCC#32)))))
    (broadcastInDim S50000x256 ![] bcast_S_S50000x256 (constant (F := Ideal) S_ .f32 0x00000000#32))

/-- The scaled features fetched along the edges (stored in the narrow float format, widened back: both the identity here). -/
def fetchedRows (cols : (⟨S800000, .i32⟩ : BufTy).Contents (Elt Ideal)) (a5 : (⟨S50000x256, .bf16⟩ : BufTy).Contents (Elt Ideal)) :
    (⟨S800000x256, .f32⟩ : BufTy).Contents (Elt Ideal) :=
  extf (F := Ideal) .f32 (Host.gather gather_S50000x256_S800000x1_S800000x256_1_0_n_n_0_1_1256 (a5 : FVec Ideal S50000x256 .bf16) (asColumn (wrapNeg cols))) bitsLt_bf16_f32

/-- The weights fetched along the edges. -/
def fetchedWeights (cols : (⟨S800000, .i32⟩ : BufTy).Contents (Elt Ideal)) (a6 : (⟨S50000x1, .f32⟩ : BufTy).Contents (Elt Ideal)) :
    (⟨S800000x1, .f32⟩ : BufTy).Contents (Elt Ideal) :=
  Host.gather gather_S50000x1_S800000x1_S800000x1_1_0_n_n_0_1_11 a6 (asColumn (wrapNeg cols))

/-! ## The kernel's program ends at them -/

variable (m : (ℓ : Loc nD τ sig) → Buf (Elt Ideal) ℓ)

/-- The destination words as the region finds them: row 0 of the edge list. -/
theorem rows_eq (c : Dev nD) : V m c main_v1
    = shapeCast _ (extractStridedSlice S1x800000 ![0, 0] (m ((c.tc : Thread nD τ).loc main_arg1)) slices_S2x800000_S1x800000_0_0) shapeCasts_S1x800000_S800000 := by
  show StableHlo.after hostOps0 (fun b => m (c, b)) (Proc.devRef .tc main_v1) = _
  after_results
  rfl

/-- The source words: row 1 of the edge list. -/
theorem cols_eq (c : Dev nD) : V m c main_v3
    = shapeCast _ (extractStridedSlice S1x800000 ![1, 0] (m ((c.tc : Thread nD τ).loc main_arg1)) slices_S2x800000_S1x800000_1_0) shapeCasts_S1x800000_S800000 := by
  show StableHlo.after hostOps0 (fun b => m (c, b)) (Proc.devRef .tc main_v3) = _
  after_results
  rfl

/-- The first bias as the region finds it: the bias vector laid out as one row. -/
theorem bias1_eq (c : Dev nD) : V m c main_v4 = shapeCast _ (m ((c.tc : Thread nD τ).loc main_arg3)) shapeCasts_S128_S1x128 := by
  show StableHlo.after hostOps0 (fun b => m (c, b)) (Proc.devRef .tc main_v4) = _
  after_results
  rfl

/-- The second bias as the region finds it: the one-entry vector laid out as a one-by-one array. -/
theorem bias2_eq (c : Dev nD) : V m c main_v5 = shapeCast _ (m ((c.tc : Thread nD τ).loc main_arg5)) shapeCasts_S1_S1x1 := by
  show StableHlo.after hostOps0 (fun b => m (c, b)) (Proc.devRef .tc main_v5) = _
  after_results
  rfl

/-- The two operations of the outlined selection, as plain operations on their buffers (the typed references'
    transports are along equations that hold by computation). -/
theorem where_ops : (hostOps1_1 : List (HloOp τ sig (Elt Ideal)))
    = [ StableHlo.unary main_v29 main_call0_v0 (broadcastInDim S50000x256 ![0, 1] bcast_S50000x1_S50000x256_0_1 : (⟨S50000x1, .i1⟩ : BufTy).Contents (Elt Ideal) → (⟨S50000x256, .i1⟩ : BufTy).Contents (Elt Ideal)),
        StableHlo.ternary main_call0_v0 main_v33 main_v34 main_v35 (select : (⟨S50000x256, .i1⟩ : BufTy).Contents (Elt Ideal) → (⟨S50000x256, .f32⟩ : BufTy).Contents (Elt Ideal) → (⟨S50000x256, .f32⟩ : BufTy).Contents (Elt Ideal) → (⟨S50000x256, .f32⟩ : BufTy).Contents (Elt Ideal)) ] := rfl

/-- The result of the kernel's program: the shared end applied to what is fetched from the region's two arrays. -/
theorem result_eq (c : Dev nD) :
    Pipeline.afterTail₀ cfgs (dats (F := Ideal) m) 0 (V0 m) [hostOps1, hostOps1_1] c main_v35
      = tail (V m c main_v1) (fetchedRows (V m c main_v3) ((dats m 0 c).arrAt 5 cfg0.N))
          (fetchedWeights (V m c main_v3) ((dats m 0 c).arrAt 6 cfg0.N)) := by
  unfold Pipeline.afterTail₀
  have h1 : Pipeline.withArrays (cfgs 0).spec c (V0 m c) (fun w => (dats m 0 c).arrAt w (cfgs 0).N) (Proc.devRef .tc main_v1) = V m c main_v1 :=
    Pipeline.withArrays_of_ne _ c (V0 m c) _ main_v1 (by exact (by decide : ∀ w, Pipeline.arrRef spec0 w ≠ main_v1))
  have h3 : Pipeline.withArrays (cfgs 0).spec c (V0 m c) (fun w => (dats m 0 c).arrAt w (cfgs 0).N) (Proc.devRef .tc main_v3) = V m c main_v3 :=
    Pipeline.withArrays_of_ne _ c (V0 m c) _ main_v3 (by exact (by decide : ∀ w, Pipeline.arrRef spec0 w ≠ main_v3))
  have h5 : Pipeline.withArrays (cfgs 0).spec c (V0 m c) (fun w => (dats m 0 c).arrAt w (cfgs 0).N) (Proc.devRef .tc main_v6_0) = (dats m 0 c).arrAt 5 cfg0.N :=
    Pipeline.withArrays_arr spec0 launch0.win.arr_inj c _ _ 5
  have h6 : Pipeline.withArrays (cfgs 0).spec c (V0 m c) (fun w => (dats m 0 c).arrAt w (cfgs 0).N) (Proc.devRef .tc main_v6_1) = (dats m 0 c).arrAt 6 cfg0.N :=
    Pipeline.withArrays_arr spec0 launch0.win.arr_inj c _ _ 6
  generalize Pipeline.withArrays (cfgs 0).spec c (V0 m c) (fun w => (dats m 0 c).arrAt w (cfgs 0).N) = W at h1 h3 h5 h6 ⊢
  rw [where_ops]
  simp only [hostOps1, List.flatten_cons, List.flatten_nil, List.append_nil, List.cons_append, List.nil_append]
  after_results_simp
  rw [h1, h3, h5, h6]
  unfold tail den num fetchedRows fetchedWeights asColumn wrapNeg
  rfl

end Cert.KernelIdeal.Tail

end
-- ==== Proof.LibRowGatherScatter.lean ====
/-
  Whole rows gathered, and whole rows added at scattered places.

  `x[idx]` for a table `x : [N, C]` and one start word per result row (`idx : [E, 1]`) is a gather with the row
  axis collapsed: result `(e, c)` is the table at `(ρ e, c)`, where `ρ e` is row `e`'s start word read as a signed
  integer and clamped into `0 … N − 1` (`gather_rows_apply`).

  `x.at[idx].add(u)` for updates `u : [E, C]` is a scatter whose window is a whole row: update `(e, c)` lands at
  `(z, c)` when row `e`'s start word, read as a signed integer `z` and NOT clamped, is a row of the table, and is
  dropped otherwise (`resultIdx?_iff`). At the exact values the result at `(n, c)` is therefore the table's entry
  plus the sum over ALL update rows `e` of `u (e, c)` when `e`'s start word is `n` and of `0` otherwise
  (`hostScatterAdd_rows_apply`): a segment sum, written with an indicator so that no index set depends on the data.
  The dimension numbers enter as hypotheses on the record's fields, so one lemma serves every program's copy of it.
-/
import Idealize.ShloMosaic.PureOps.Ideal
import Idealize.ShloMosaic.Lib.ValueIdx

noncomputable section

open scoped BigOperators

namespace Cert.Lib.RowGatherScatter

open Idealize.ShloMosaic Idealize.ShloMosaic.ValueIdx

variable {N E C : ℕ}

/-- Where row `e`'s start word sits in the `[E, 1]` array of start indices. -/
abbrev startAt (e : Fin E) : (⟨2, ![E, 1]⟩ : Shape).Idx := ix2 e ⟨0, Nat.one_pos⟩

private theorem one_not_mem : (1 : Fin 2) ∉ ([0] : List (Fin 2)) := by decide

private theorem mem_kept (s : Shape) (l : List (Fin s.rank)) (a : Fin s.rank) : a ∈ s.kept l ↔ a ∉ l := by
  simp [Shape.kept, List.mem_filter, List.mem_finRange]

/-! ## The scatter of rows -/

section Scatter

variable (d : ScatterDims ⟨2, ![N, C]⟩ ⟨2, ![E, 1]⟩ ⟨2, ![E, C]⟩)

theorem start_row (h3 : d.scatterDimsToOperandDims = [0]) (h1 : d.updateWindowDims = [1]) (h4 : d.indexVectorDim = 1)
    {w : ℕ} (idx : IVec ⟨2, ![E, 1]⟩ w) (e : Fin E) (c : Fin C) :
    d.start (ix2 e c) idx 0 = (idx (startAt e)).toInt := by
  obtain ⟨uw, iw, sd, iv, wf⟩ := d
  dsimp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

theorem start_col (h3 : d.scatterDimsToOperandDims = [0]) {w : ℕ} (idx : IVec ⟨2, ![E, 1]⟩ w)
    (j : (⟨2, ![E, C]⟩ : Shape).Idx) : d.start j idx 1 = 0 := by
  unfold ScatterDims.start
  rw [dif_neg (by rw [h3]; exact one_not_mem)]

theorem window_row (h2 : d.insertedWindowDims = [0]) (j : (⟨2, ![E, C]⟩ : Shape).Idx) : d.window j 0 = 0 := by
  unfold ScatterDims.window
  rw [dif_neg (by rw [ScatterDims.sKept, h2, mem_kept]; exact not_not.mpr (List.mem_singleton.mpr rfl))]

theorem window_col (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by rw [ScatterDims.sKept, mem_kept]; exact one_not_mem)]
  rfl

/-- Update `(e, c)` lands at `(n, c')` exactly when row `e`'s start word, read signed, is `n`, and `c = c'`. -/
theorem resultIdx?_iff (h1 : d.updateWindowDims = [1]) (h2 : d.insertedWindowDims = [0])
    (h3 : d.scatterDimsToOperandDims = [0]) (h4 : d.indexVectorDim = 1) {w : ℕ} (idx : IVec ⟨2, ![E, 1]⟩ w)
    (e : Fin E) (c : Fin C) (n : Fin N) (c' : Fin C) :
    d.resultIdx? (ix2 e c) idx = some (ix2 n c') ↔ (idx (startAt e)).toInt = (n.val : ℤ) ∧ c = c' := by
  have s0 := start_row d h3 h1 h4 idx e c
  have s1 := start_col d h3 idx (ix2 e c)
  have w0 := window_row d h2 (ix2 e c)
  have w1 := window_col d h1 h2 e c
  unfold ScatterDims.resultIdx?
  constructor
  · intro h
    split at h
    · rename_i hin
      have hf := Option.some.inj h
      have e0 := congrArg (fun f => (f 0).val) hf
      have e1 := congrArg (fun f => (f 1).val) hf
      simp only [s0, s1, w0, w1] at e0 e1
      have h0 := (hin 0).1
      rw [s0, w0] at h0
      refine ⟨?_, Fin.ext ?_⟩
      · have : ((idx (startAt e)).toInt + ((0 : ℕ) : ℤ)).toNat = n.val := e0
        omega
      · have : ((0 : ℤ) + (c.val : ℤ)).toNat = c'.val := e1
        omega
    · exact absurd h (by simp)
  · rintro ⟨hz, rfl⟩
    have hin : ∀ a : Fin 2, 0 ≤ d.start (ix2 e c) idx a + (d.window (ix2 e c) a : ℤ) ∧
        d.start (ix2 e c) idx a + (d.window (ix2 e c) a : ℤ) < ((⟨2, ![N, C]⟩ : Shape).size a : ℤ) := by
      intro a
      match a with
      | ⟨0, _⟩ =>
        rw [show (⟨0, _⟩ : Fin 2) = 0 from rfl, s0, w0, hz]
        have := n.isLt
        exact ⟨by omega, by show (n.val : ℤ) + ((0 : ℕ) : ℤ) < (N : ℤ); omega⟩
      | ⟨1, _⟩ =>
        rw [show (⟨1, _⟩ : Fin 2) = 1 from rfl, s1, w1]
        have := c.isLt
        exact ⟨by omega, by show (0 : ℤ) + (c.val : ℤ) < (C : ℤ); omega⟩
    rw [dif_pos hin]
    congr 1
    funext a
    refine Fin.ext ?_
    match a with
    | ⟨0, _⟩ =>
      show (d.start (ix2 e c) idx 0 + (d.window (ix2 e c) 0 : ℤ)).toNat = n.val
      rw [s0, w0, hz]; omega
    | ⟨1, _⟩ =>
      show (d.start (ix2 e c) idx 1 + (d.window (ix2 e c) 1 : ℤ)).toNat = c.val
      rw [s1, w1]; omega

/-- THE SCATTER-ADD OF ROWS AT `(n, c)`, at the exact values: the table's entry plus, over every update row, the
    update's entry in column `c` when that row's start word is `n`. -/
theorem hostScatterAdd_rows_apply (h1 : d.updateWindowDims = [1]) (h2 : d.insertedWindowDims = [0])
    (h3 : d.scatterDimsToOperandDims = [0]) (h4 : d.indexVectorDim = 1) {w : ℕ}
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c)
      = x (ix2 n c) + ∑ e : Fin E, if (idx (startAt e)).toInt = (n.val : ℤ) then upd (ix2 e c) else 0 := by
  unfold Ideal.hostScatterAdd
  congr 1
  rw [Finset.sum_filter, sum_idx2]
  refine Finset.sum_congr rfl fun e _ => ?_
  simp only [resultIdx?_iff d h1 h2 h3 h4]
  by_cases hz : (idx (startAt e)).toInt = (n.val : ℤ)
  · simp only [hz, true_and, if_true]
    rw [Finset.sum_ite_eq' Finset.univ c (fun c' => upd (ix2 e c'))]
    simp
  · simp only [hz, false_and, if_false]
    exact Finset.sum_const_zero

end Scatter

/-! ## The gather of rows -/

section Gather

variable (g : GatherDims ⟨2, ![N, C]⟩ ⟨2, ![E, 1]⟩ ⟨2, ![E, C]⟩)

/-- The table row that result row `e` reads: its start word read signed, clamped into `0 … N − 1`. -/
def rowOf {w : ℕ} (hN : 0 < N) (idx : IVec ⟨2, ![E, 1]⟩ w) (e : Fin E) : Fin N :=
  ⟨min (idx (startAt e)).toInt.toNat (N - 1), by omega⟩

/-- THE GATHER OF ROWS AT `(e, c)`: the table at `(rowOf e, c)`. -/
theorem gather_rows_apply {α : Type} (hN : 0 < N) (ho : g.offsetDims = [1]) (hc : g.collapsedSliceDims = [0])
    (hob : g.operandBatchingDims = []) (hsb : g.startIndicesBatchingDims = []) (hm : g.startIndexMap = [0])
    (hv : g.indexVectorDim = 1) (hs : g.sliceSizes = ![1, C]) {w : ℕ}
    (x : (⟨2, ![N, C]⟩ : Shape).Idx → α) (idx : IVec ⟨2, ![E, 1]⟩ w) (e : Fin E) (c : Fin C) :
    Host.gather g x idx (ix2 e c) = x (ix2 (rowOf hN idx e) c) := by
  obtain ⟨od, cs, ob, sb, sm, iv, ss, wf⟩ := g
  dsimp only at ho hc hob hsb hm hv hs
  subst ho hc hob hsb hm hv hs
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - 1) = min (idx (startAt e)).toInt.toNat (N - 1)
    congr 4
    funext b
    refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start GatherDims.offCoord
    rw [dif_neg (by exact one_not_mem), dif_pos ((GatherDims.mem_sKept _ _).mpr ⟨one_not_mem, List.not_mem_nil⟩)]
    simp only [Nat.add_zero, Nat.zero_add]
    rfl

end Gather

end Cert.Lib.RowGatherScatter

end
-- ==== Proof.RefValue.lean ====
/-
  What the reference computes along one edge.

  Edge `e` fetches the feature row of its source node `src e` (the gather: the edge's index word, wrapped if negative,
  clamped into the table), pushes it through the two layers and the logistic function, and contributes that row times
  the resulting weight. Entry by entry: the fetched row is the table's row `src e`; the weight is the gate of that
  row; the contribution at `(e, d)` is feature `(src e, d)` times that weight. The host spells the logistic function
  `1 / (1 + exp (−z))`, which on the extended reals is the logistic function itself, the two ones being the float one.
-/
import proofs.«125902_j29317446762861_2_alg».proof.Proof.Gen.ReferenceIdeal.Read
import proofs.«125902_j29317446762861_2_alg».proof.Proof.LibRowGatherScatter
import proofs.«125902_j29317446762861_2_alg».proof.Proof.Gate
import Idealize.ShloMosaic.Lib.IdealHost
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.NodeGate
open Cert.Lib.RowGatherScatter (rowOf gather_rows_apply)

variable (x0 : (⟨S50000x256, .f32⟩ : BufTy).Contents (Elt Ideal)) (x1 : (⟨S2x800000, .i32⟩ : BufTy).Contents (Elt Ideal))
  (x2 : (⟨S256x128, .f32⟩ : BufTy).Contents (Elt Ideal)) (x3 : (⟨S128, .f32⟩ : BufTy).Contents (Elt Ideal))
  (x4 : (⟨S128x1, .f32⟩ : BufTy).Contents (Elt Ideal)) (x5 : (⟨S1, .f32⟩ : BufTy).Contents (Elt Ideal))

/-- The node whose row edge `e` fetches, given the column of start words. -/
abbrev srcOf (idx : (⟨S800000x1, .i32⟩ : BufTy).Contents (Elt Ideal)) (e : Fin 800000) : Fin 50000 :=
  rowOf (N := 50000) (E := 800000) (by decide) idx e

/-- The fetched features at `(e, d)`: the table at `(src e, d)`. -/
theorem neigh_apply (e : Fin 800000) (d : Fin 256) :
    val_main_v10 (F := Ideal) x0 x1 (ix2 e d) = x0 (ix2 (srcOf (val_main_v9 (F := Ideal) x1) e) d) := by
  unfold val_main_v10
  exact gather_rows_apply gather_S50000x256_S800000x1_S800000x256_1_0_n_n_0_1_1256 (by decide) rfl rfl rfl rfl rfl rfl rfl
    x0 (val_main_v9 (F := Ideal) x1) e d

/-- Hidden unit `j` of edge `e` is the hidden unit of the source node's row. -/
theorem hidden_apply (e : Fin 800000) (j : Fin 128) :
    val_main_v15 (F := Ideal) x0 x1 x2 x3 (ix2 e j)
      = hiddenUnit (fun k => x0 (ix2 (srcOf (val_main_v9 (F := Ideal) x1) e) k)) x2 (fun j => x3 (ix1 j)) j := by
  rw [val_main_v15_apply, val_main_v14_apply, val_main_v11_apply, val_main_v13_apply, val_main_v12_apply, val_main_call0_v0_apply]
  unfold hiddenUnit
  refine congrArg₂ max (congrArg₂ (· + ·) (Finset.sum_congr rfl fun k _ => congrArg₂ (· * ·) ?_ (congrArg x2 ?_)) (congrArg x3 ?_)) rfl
  · have h : lidx_main_v11 (ix2 e j) k = ix2 e k := funext fun a => Fin.ext (by
      match a with
      | ⟨0, _⟩ => rfl
      | ⟨1, _⟩ => rfl)
    rw [h]
    exact neigh_apply x0 x1 e k
  · exact funext fun a => Fin.ext (by
      match a with
      | ⟨0, _⟩ => rfl
      | ⟨1, _⟩ => rfl)
  · exact funext fun a => Fin.ext (by
      match a with
      | ⟨0, _⟩ => rfl)

/-- The float one the host writes twice. -/
theorem one22 (i : S800000x1.Idx) : val_main_v22 (F := Ideal) i = 1 := by
  rw [val_main_v22_apply]
  exact Ideal.ofBits_one_f32
theorem one24 (i : S800000x1.Idx) : val_main_v24 (F := Ideal) i = 1 := by
  rw [val_main_v24_apply]
  exact Ideal.ofBits_one_f32

/-- The weight of edge `e` is the gate of its source node's row. -/
theorem weight_apply (e : Fin 800000) :
    val_main_v25 (F := Ideal) x0 x1 x2 x3 x4 x5 (ix2 e (0 : Fin 1))
      = gate (fun k => x0 (ix2 (srcOf (val_main_v9 (F := Ideal) x1) e) k)) x2 (fun j => x3 (ix1 j)) x4 (x5 (ix1 (0 : Fin 1))) := by
  rw [val_main_v25_apply, val_main_v23_apply, val_main_v21_apply, val_main_v20_apply, val_main_v19_apply, val_main_v16_apply,
    val_main_v18_apply, val_main_v17_apply, one22, one24]
  unfold gate
  show Ideal.div 1 (1 + Ideal.exp (-(_ + _))) = Ideal.div 1 (1 + Ideal.exp (-(_ + _)))
  refine congrArg (fun z : EReal => Ideal.div 1 (1 + Ideal.exp (-z))) (congrArg₂ (· + ·) (Finset.sum_congr rfl fun k _ => congrArg₂ (· * ·) ?_ (congrArg x4 ?_)) (congrArg x5 ?_))
  · have h : lidx_main_v16 (ix2 e (0 : Fin 1)) k = ix2 e k := funext fun a => Fin.ext (by
      match a with
      | ⟨0, _⟩ => rfl
      | ⟨1, _⟩ => rfl)
    rw [h]
    exact hidden_apply x0 x1 x2 x3 e k
  · exact funext fun a => Fin.ext (by
      match a with
      | ⟨0, _⟩ => rfl
      | ⟨1, _⟩ => rfl)
  · exact funext fun a => Fin.ext (by
      match a with
      | ⟨0, _⟩ => rfl)

/-- The contribution of edge `e` at column `d`: the source node's feature there times the edge's weight. -/
theorem update_apply (e : Fin 800000) (d : Fin 256) :
    val_main_v27 (F := Ideal) x0 x1 x2 x3 x4 x5 (ix2 e d)
      = x0 (ix2 (srcOf (val_main_v9 (F := Ideal) x1) e) d) * val_main_v25 (F := Ideal) x0 x1 x2 x3 x4 x5 (ix2 e (0 : Fin 1)) := by
  rw [val_main_v27_apply, val_main_v26_apply]
  refine congrArg₂ (· * ·) (neigh_apply x0 x1 e d) (congrArg _ ?_)
  exact funext fun a => Fin.ext (by
    match a with
    | ⟨0, _⟩ => rfl
    | ⟨1, _⟩ => rfl)

end Cert.ReferenceIdeal.RefValue

end
-- ==== Proof.Bridge.lean ====
/-
  The two programs feed the shared end the same contributions, weights and destinations.

  The kernel's program computes every node's weight and its scaled feature row once, then fetches both along each
  edge from the edge's source node. The reference fetches the source node's feature row along each edge and computes
  the weight and the scaled row there. A node's weight depends on its own feature row only
  (`Cert.NodeGate.gate`), so "compute, then fetch" and "fetch, then compute" give, for edge `e` with source node
  `s`: the weight `gate (row s)`, and at column `d` the contribution `x (s, d) · gate (row s)`. Both programs take
  the source node from the same index word by the same rule (wrap a negative word, clamp into the table), and the
  destinations from the same words. The kernel's biases are the reference's bias vectors laid out as one row.
-/
import proofs.«125902_j29317446762861_2_alg».proof.Proof.KernelArrays
import proofs.«125902_j29317446762861_2_alg».proof.Proof.KernelTail
import proofs.«125902_j29317446762861_2_alg».proof.Proof.RefValue
import proofs.«125902_j29317446762861_2_alg».proof.Proof.LibRowGatherScatter
import Idealize.ShloMosaic.Lib.ValueLayout
import Idealize.ShloMosaic.Lib.ValueIdx

set_option maxRecDepth 16384

noncomputable section

namespace Cert.Bridge

open Idealize.ShloMosaic Idealize.ShloMosaic.ValueIdx Cert.NodeGate Cert.KernelIdeal
open Cert.KernelIdeal.Tail Cert.KernelIdeal.Arrays Cert.KernelIdeal.Facts₀
open Cert.Lib.RowGatherScatter (rowOf gather_rows_apply)

variable (X : (⟨S50000x256, .f32⟩ : BufTy).Contents (Elt Ideal)) (ei : (⟨S2x800000, .i32⟩ : BufTy).Contents (Elt Ideal))
  (W1 : (⟨S256x128, .f32⟩ : BufTy).Contents (Elt Ideal)) (b1 : (⟨S128, .f32⟩ : BufTy).Contents (Elt Ideal))
  (W2 : (⟨S128x1, .f32⟩ : BufTy).Contents (Elt Ideal)) (b2 : (⟨S1, .f32⟩ : BufTy).Contents (Elt Ideal))

/-! ## The pieces of the answer, in the kernel's program's words -/

/-- The destination words: row 0 of the edge list. -/
def rowsOf : (⟨S800000, .i32⟩ : BufTy).Contents (Elt Ideal) :=
  shapeCast _ (extractStridedSlice S1x800000 ![0, 0] ei slices_S2x800000_S1x800000_0_0) shapeCasts_S1x800000_S800000
/-- The source words: row 1 of the edge list. -/
def colsOf : (⟨S800000, .i32⟩ : BufTy).Contents (Elt Ideal) :=
  shapeCast _ (extractStridedSlice S1x800000 ![1, 0] ei slices_S2x800000_S1x800000_1_0) shapeCasts_S1x800000_S800000
/-- The first bias vector as one row. -/
def biasRow : (⟨S1x128, .f32⟩ : BufTy).Contents (Elt Ideal) := shapeCast _ b1 shapeCasts_S128_S1x128
/-- The second bias as a one-by-one array. -/
def biasCell : (⟨S1x1, .f32⟩ : BufTy).Contents (Elt Ideal) := shapeCast _ b2 shapeCasts_S1_S1x1

/-- The column of start words both programs' fetches read. -/
def startWords : (⟨S800000x1, .i32⟩ : BufTy).Contents (Elt Ideal) := asColumn (wrapNeg (colsOf ei))

/-- THE ANSWER: the shared end applied to what the kernel's program fetches along the edges. -/
def answer : (⟨S50000x256, .f32⟩ : BufTy).Contents (Elt Ideal) :=
  tail (rowsOf ei)
    (fetchedRows (colsOf ei) (scaled X W1 (biasRow b1) W2 (biasCell b2)))
    (fetchedWeights (colsOf ei) (weights X W1 (biasRow b1) W2 (biasCell b2)))

/-! ## The reference in the same words -/

/-- The reference's fetch reads the same start words. -/
theorem ref_startWords : Cert.ReferenceIdeal.Read.val_main_v9 (F := Ideal) ei = startWords ei := by
  unfold Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_c
    Cert.ReferenceIdeal.Read.val_main_c_0 startWords asColumn wrapNeg colsOf
  rfl

/-- The reference's result is the shared end applied to ITS contributions, weights and destinations. -/
theorem ref_tail : Cert.ReferenceIdeal.Read.val_main_v40 (F := Ideal) X ei W1 b1 W2 b2
    = tail (rowsOf ei) (Cert.ReferenceIdeal.Read.val_main_v27 (F := Ideal) X ei W1 b1 W2 b2)
        (Cert.ReferenceIdeal.Read.val_main_v25 (F := Ideal) X ei W1 b1 W2 b2) := by
  unfold Cert.ReferenceIdeal.Read.val_main_v40 Cert.ReferenceIdeal.Read.val_main_call1_v1 Cert.ReferenceIdeal.Read.val_main_call1_v2
    Cert.ReferenceIdeal.Read.val_main_call1_v0 Cert.ReferenceIdeal.Read.val_main_cst_6
    Cert.ReferenceIdeal.Read.val_main_v39 Cert.ReferenceIdeal.Read.val_main_v38 Cert.ReferenceIdeal.Read.val_main_v37
    Cert.ReferenceIdeal.Read.val_main_v36 Cert.ReferenceIdeal.Read.val_main_cst_5 Cert.ReferenceIdeal.Read.val_main_v35
    Cert.ReferenceIdeal.Read.val_main_v34 Cert.ReferenceIdeal.Read.val_main_cst_4 Cert.ReferenceIdeal.Read.val_main_v33
    Cert.ReferenceIdeal.Read.val_main_v32 Cert.ReferenceIdeal.Read.val_main_v31 Cert.ReferenceIdeal.Read.val_main_cst_3
    Cert.ReferenceIdeal.Read.val_main_v30 Cert.ReferenceIdeal.Read.val_main_v29 Cert.ReferenceIdeal.Read.val_main_v28
    Cert.ReferenceIdeal.Read.val_main_cst_2 Cert.ReferenceIdeal.Read.val_main_v1 Cert.ReferenceIdeal.Read.val_main_v0
    tail den num asColumn rowsOf
  rfl

/-! ## Fetching a node's weight is computing the weight of the fetched row -/

/-- The kernel's one-row bias at column `j` is the bias vector at `j`. -/
theorem biasRow_apply (j : Fin 128) : biasRow b1 (ix2 (0 : Fin 1) j) = b1 (ix1 j) :=
  shapeCast_a_1a_apply b1 shapeCasts_S128_S1x128 (0 : Fin 1) j
/-- The kernel's one-by-one bias is the one-entry bias vector's entry. -/
theorem biasCell_apply : biasCell b2 (ix2 (0 : Fin 1) (0 : Fin 1)) = b2 (ix1 (0 : Fin 1)) :=
  shapeCast_a_1a_apply b2 shapeCasts_S1_S1x1 (0 : Fin 1) (0 : Fin 1)

/-- A node's weight in the kernel's words is the gate of its row with the reference's bias vectors. -/
theorem weightOf_eq (n : Fin 50000) :
    weightOf X W1 (biasRow b1) W2 (biasCell b2) n = gate (fun k => X (ix2 n k)) W1 (fun j => b1 (ix1 j)) W2 (b2 (ix1 (0 : Fin 1))) := by
  unfold weightOf
  exact gate_congr rfl rfl (funext fun j => biasRow_apply b1 j) rfl (biasCell_apply b2)

/-- The weights agree, edge by edge. -/
theorem weights_agree : Cert.ReferenceIdeal.Read.val_main_v25 (F := Ideal) X ei W1 b1 W2 b2
    = fetchedWeights (colsOf ei) (weights X W1 (biasRow b1) W2 (biasCell b2)) := by
  funext i
  obtain ⟨e, q, rfl⟩ : ∃ (e : Fin 800000) (q : Fin 1), i = ix2 e q := ⟨i 0, i 1, eq_ix2 i⟩
  obtain rfl : q = 0 := Subsingleton.elim _ _
  refine (Cert.ReferenceIdeal.RefValue.weight_apply X ei W1 b1 W2 b2 e).trans ?_
  rw [ref_startWords]
  unfold fetchedWeights
  refine Eq.trans ?_ (gather_rows_apply gather_S50000x1_S800000x1_S800000x1_1_0_n_n_0_1_11 (by decide) rfl rfl rfl rfl rfl rfl rfl
    (weights X W1 (biasRow b1) W2 (biasCell b2)) (startWords ei) e (0 : Fin 1)).symm
  exact (weightOf_eq X W1 b1 W2 b2 _).symm

/-- The contributions agree, entry by entry. -/
theorem updates_agree : Cert.ReferenceIdeal.Read.val_main_v27 (F := Ideal) X ei W1 b1 W2 b2
    = fetchedRows (colsOf ei) (scaled X W1 (biasRow b1) W2 (biasCell b2)) := by
  funext i
  obtain ⟨e, d, rfl⟩ : ∃ (e : Fin 800000) (d : Fin 256), i = ix2 e d := ⟨i 0, i 1, eq_ix2 i⟩
  refine (Cert.ReferenceIdeal.RefValue.update_apply X ei W1 b1 W2 b2 e d).trans ?_
  rw [Cert.ReferenceIdeal.RefValue.weight_apply, ref_startWords]
  unfold fetchedRows
  refine Eq.trans ?_ (gather_rows_apply gather_S50000x256_S800000x1_S800000x256_1_0_n_n_0_1_1256 (by decide) rfl rfl rfl rfl rfl rfl rfl
    (scaled X W1 (biasRow b1) W2 (biasCell b2)) (startWords ei) e d).symm
  exact congrArg (X (ix2 _ d) * ·) (weightOf_eq X W1 b1 W2 b2 _).symm

/-- THE REFERENCE'S RESULT IS THE ANSWER. -/
theorem ref_answer : Cert.ReferenceIdeal.Read.val_main_v40 (F := Ideal) X ei W1 b1 W2 b2 = answer X ei W1 b1 W2 b2 := by
  rw [ref_tail, updates_agree, weights_agree]
  rfl

end Cert.Bridge

end
-- ==== Proof.KernelRun.lean ====
/-
  The kernel's program, run: it ends with its result at the answer and its arguments as launched.

  The generated frame run leaves every array of the region at what the grid's points wrote and every other buffer at
  what the operations after the region computed. The result buffer is one of the latter: the shared end applied to
  fetches from the region's two arrays (`Tail.result_eq`), which are the weight column and the scaled features as
  whole functions of the arguments (`Arrays.final6`, `Arrays.final5`); the arrays the region was launched on are the
  arguments themselves, the biases the bias vectors laid out as one row.
-/
import proofs.«125902_j29317446762861_2_alg».proof.Proof.Bridge
import proofs.«125902_j29317446762861_2_alg».proof.Proof.Gen.KernelIdeal.Frame

set_option maxRecDepth 16384

noncomputable section

namespace Cert.KernelIdeal.Run

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the operations after the region leave in the result buffer is the answer, as a function of the arguments. -/
theorem result_answer (c : Dev nD) :
    Pipeline.afterTail₀ cfgs (dats (F := Ideal) m) 0 (V0 m) [hostOps1, hostOps1_1] c main_v35
      = Cert.Bridge.answer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [Cert.KernelIdeal.Tail.result_eq, Cert.KernelIdeal.Tail.rows_eq, Cert.KernelIdeal.Tail.cols_eq,
    Cert.KernelIdeal.Arrays.final5, Cert.KernelIdeal.Arrays.final6, V_main_arg0, V_main_arg2, V_main_arg4,
    Cert.KernelIdeal.Tail.bias1_eq, Cert.KernelIdeal.Tail.bias2_eq]
  unfold Cert.Bridge.answer Cert.Bridge.rowsOf Cert.Bridge.colsOf Cert.Bridge.biasRow Cert.Bridge.biasCell
  rfl

/-- Every weakly fair execution of the kernel's program terminates with the result at the answer and the six
    arguments unchanged. -/
theorem run : θ_run defs (onTc (τ := τ) (main (F := Ideal))) ⟨m, fun _ => 0, ρ⟩ (fun r => ∀ c : Dev nD,
      r.2.mem ((c.tc : Thread nD τ).loc main_v35)
        = Cert.Bridge.answer (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v35 (Pipeline.mem_restRefs_of main_v35 (by decide) (by decide))).trans (result_answer m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.Run

end
-- ==== Proof.lean ====
/-
  Attention-weighted mean over a graph's edges: the kernel's program against its jnp reference, on the extended reals.

  For every edge `e` from source node `s` to destination node `r`, the reference fetches the feature row `x s`,
  computes the weight `w = logistic (relu (x s · W1 + b1) · W2 + b2)`, adds `x s · w` into row `r` of a numerator and
  `w` into entry `r` of a denominator, and returns `num / max den ε` where `den > 0` and zero elsewhere. The kernel's
  program computes the weight of EVERY node once, in a grid of 25 blocks of 2000 nodes (the weight column and the
  feature rows scaled by it), and then fetches those along the edges before the same two sums and the same division.

  The two agree because a node's weight is a function of its own feature row alone (`Cert.NodeGate.gate`): fetching
  row `s` and computing its weight, or computing all weights and fetching entry `s`, is the same number, and likewise
  for the scaled row. No law of arithmetic beyond that is used: the sums, the products and the division are the same
  operations applied to equal operands, so nothing depends on the inputs being finite. The logistic function the kernel
  applies is, on the extended reals, the quotient `1 / (1 + exp (−z))` the host spells out, and the changes of float
  format (to the narrow format before each matrix product and for the stored scaled rows, and back) are the identity.

  The modules: `Gate` (the weight of one row), `KernelBody` (what one grid point stores, entry by entry),
  `KernelArrays` (the region's two arrays as whole functions of the arguments), `KernelTail` (the operations both
  programs end with, and that the kernel's program applies them to fetches from those two arrays), `RefValue` (what
  the reference computes along one edge), `Bridge` (the two programs feed the shared end equal operands),
  `KernelRun` (the kernel's program's run with its result named). The three frames are the generated ones; the
  idealization rewrote nothing, so `preserves` is trivial.
-/
import proofs.«125902_j29317446762861_2_alg».proof.Defs
import proofs.«125902_j29317446762861_2_alg».proof.Proof.Gen.Kernel
import proofs.«125902_j29317446762861_2_alg».proof.Proof.Gen.Kernel.Skeleton
import proofs.«125902_j29317446762861_2_alg».proof.Proof.Gen.Kernel.Launch
import proofs.«125902_j29317446762861_2_alg».proof.Proof.Gen.Kernel.Points
import proofs.«125902_j29317446762861_2_alg».proof.Proof.Gen.Kernel.Frame
import proofs.«125902_j29317446762861_2_alg».proof.Proof.Gen.KernelIdeal
import proofs.«125902_j29317446762861_2_alg».proof.Proof.Gen.KernelIdeal.Skeleton
import proofs.«125902_j29317446762861_2_alg».proof.Proof.Gen.KernelIdeal.Launch
import proofs.«125902_j29317446762861_2_alg».proof.Proof.Gen.KernelIdeal.Points
import proofs.«125902_j29317446762861_2_alg».proof.Proof.Gen.KernelIdeal.Frame
import proofs.«125902_j29317446762861_2_alg».proof.Proof.Gen.ReferenceIdeal
import proofs.«125902_j29317446762861_2_alg».proof.Proof.Gen.ReferenceIdeal.Run
import proofs.«125902_j29317446762861_2_alg».proof.Proof.Gen.ReferenceIdeal.Read
import proofs.«125902_j29317446762861_2_alg».proof.Proof.Gen.Pre_finite_inputs
import proofs.«125902_j29317446762861_2_alg».proof.Proof.Bridge
import proofs.«125902_j29317446762861_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel's program runs and leaves its arguments unchanged. -/
theorem frame_kernel : Cert.frame_Kernel := fun m ρ _ => Cert.Kernel.Gen.frame m ρ

/-- So does the idealized kernel's program. -/
theorem frame_kernelIdeal : Cert.frame_KernelIdeal := fun m ρ _ => Cert.KernelIdeal.Gen.frame m ρ

/-- So does the idealized reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both idealized programs end with their result at the answer:
    the kernel's program by its run, the reference because its result term is the answer of its own arguments. -/
theorem algebraic : Cert.algebraic_KernelIdeal_ReferenceIdeal := by
  intro m ρ m' ρ' _ hagree
  refine ⟨fun c => Cert.Bridge.answer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2.1,
    (hagree c).2.2.2.2.1, (hagree c).2.2.2.2.2]
  exact Cert.Bridge.ref_answer _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
